-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x32 : Shape := ⟨3, ![32, 512, 32]⟩
abbrev S32x512 : Shape := ⟨2, ![32, 512]⟩
abbrev S_ : Shape := ⟨0, ![]⟩

class Facts : Prop where
  bcast_S_S32x512x32 : S_.BroadcastsInDim S32x512x32 (![] : Fin 0 → Fin S32x512x32.rank)
  reducesTo_S32x512x32_S_d0_1_2 : S32x512x32.ReducesTo [0, 1, 2] S_
  h_S_ : 0 < S_.numel
  bcast_S_S32x512 : S_.BroadcastsInDim S32x512 (![] : Fin 0 → Fin S32x512.rank)
  reducesTo_S32x512_S_d0_1 : S32x512.ReducesTo [0, 1] S_

variable [Facts]

def fn {F : FTy → Type} [FloatOps F] (main_arg0 : FVec F S32x512x32 .f32) (main_arg1 : FVec F S32x512 .f32) (main_arg2 : FVec F S32x512 .f32) : IVec S_ 1 :=
  let main_v0 : FVec F S32x512x32 .f32 := Host.absf main_arg0
  let main_cst : FVec F S_ .f32 := constant S_ .f32 0x7F800000#32
  let main_v1 : FVec F S32x512x32 .f32 := broadcastInDim S32x512x32 ![] bcast_S_S32x512x32 main_cst
  let main_v2 : IVec S32x512x32 1 := cmpf .olt main_v0 main_v1
  let main_c : IVec S_ 1 := constantI S_ 1 1#1
  let main_v3 : IVec S_ 1 := (fun x v => Host.reduce IntOp.andi x v reducesTo_S32x512x32_S_d0_1_2 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S32x512 .f32 := Host.absf main_arg2
  let main_cst_2 : FVec F S_ .f32 := constant S_ .f32 0x7F800000#32
  let main_v10 : FVec F S32x512 .f32 := broadcastInDim S32x512 ![] bcast_S_S32x512 main_cst_2
  let main_v11 : IVec S32x512 1 := cmpf .olt main_v9 main_v10
  let main_c_3 : IVec S_ 1 := constantI S_ 1 1#1
  let main_v12 : IVec S_ 1 := (fun x v => Host.reduce IntOp.andi x v reducesTo_S32x512_S_d0_1 h_S_) main_v11 main_c_3
  let main_v13 : IVec S_ 1 := andi main_v8 main_v12
  main_v13
-- ==== Kernel.lean ====
abbrev S32x512x32 : Shape := ⟨3, ![32, 512, 32]⟩
abbrev S32x512 : Shape := ⟨2, ![32, 512]⟩
abbrev S16384x32 : Shape := ⟨2, ![16384, 32]⟩
abbrev S16384x32x512 : Shape := ⟨3, ![16384, 32, 512]⟩
abbrev S256x32 : Shape := ⟨2, ![256, 32]⟩
abbrev S256x32x512 : Shape := ⟨3, ![256, 32, 512]⟩
abbrev S256x1 : Shape := ⟨2, ![256, 1]⟩
abbrev S1x512 : Shape := ⟨2, ![1, 512]⟩
abbrev S256x512 : Shape := ⟨2, ![256, 512]⟩
abbrev S256x1x512 : Shape := ⟨3, ![256, 1, 512]⟩
abbrev S32x512x32x512 : Shape := ⟨4, ![32, 512, 32, 512]⟩

abbrev nBuf : Space → Nat
  | .hbm => 6
  | .vmem => 6
  | .smem => 0
  | _ => 0

abbrev bufTy : (tb : Table) → Fin (tcTables nBuf tb) → BufTy
  | .hbm, ⟨0, _⟩ => ⟨S32x512x32, .f32⟩
  | .hbm, ⟨1, _⟩ => ⟨S32x512, .f32⟩
  | .hbm, ⟨2, _⟩ => ⟨S32x512, .f32⟩
  | .hbm, ⟨3, _⟩ => ⟨S16384x32, .f32⟩
  | .hbm, ⟨4, _⟩ => ⟨S16384x32x512, .f32⟩
  | .hbm, ⟨5, _⟩ => ⟨S32x512x32x512, .f32⟩
  | .local _ .vmem, ⟨0, _⟩ => ⟨S256x32, .f32⟩
  | .local _ .vmem, ⟨1, _⟩ => ⟨S256x32, .f32⟩
  | .local _ .vmem, ⟨2, _⟩ => ⟨S32x512, .f32⟩
  | .local _ .vmem, ⟨3, _⟩ => ⟨S32x512, .f32⟩
  | .local _ .vmem, ⟨4, _⟩ => ⟨S256x32x512, .f32⟩
  | .local _ .vmem, ⟨5, _⟩ => ⟨S256x32x512, .f32⟩
  | _, _ => ⟨S32x512x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32x512x32_S16384x32 : S32x512x32.ShapeCasts S16384x32
  inb_S256x32_S256x1_0_0 : ∀ a, (![0, 0] : Fin 2 → Nat) a + S256x1.size a ≤ S256x32.size a
  h_S256x1 : 0 < S256x1.numel
  shapeCasts_S256x1_S256x1 : S256x1.ShapeCasts S256x1
  inb_S32x512_S1x512_0_0 : ∀ a, (![0, 0] : Fin 2 → Nat) a + S1x512.size a ≤ S32x512.size a
  h_S1x512 : 0 < S1x512.numel
  broadcasts_S256x1_S256x512 : S256x1.Broadcasts S256x512
  broadcasts_S1x512_S256x512 : S1x512.Broadcasts S256x512
  shapeCasts_S256x512_S256x1x512 : S256x512.ShapeCasts S256x1x512
  inb_S256x32x512_S256x1x512_0_0_0 : ∀ a, (![0, 0, 0] : Fin 3 → Nat) a + S256x1x512.size a ≤ S256x32x512.size a
  h_S256x1x512 : 0 < S256x1x512.numel
  inb_S256x32_S256x1_0_1 : ∀ a, (![0, 1] : Fin 2 → Nat) a + S256x1.size a ≤ S256x32.size a
  inb_S32x512_S1x512_1_0 : ∀ a, (![1, 0] : Fin 2 → Nat) a + S1x512.size a ≤ S32x512.size a
  inb_S256x32x512_S256x1x512_0_1_0 : ∀ a, (![0, 1, 0] : Fin 3 → Nat) a + S256x1x512.size a ≤ S256x32x512.size a
  inb_S256x32_S256x1_0_2 : ∀ a, (![0, 2] : Fin 2 → Nat) a + S256x1.size a ≤ S256x32.size a
  inb_S32x512_S1x512_2_0 : ∀ a, (![2, 0] : Fin 2 → Nat) a + S1x512.size a ≤ S32x512.size a
  inb_S256x32x512_S256x1x512_0_2_0 : ∀ a, (![0, 2, 0] : Fin 3 → Nat) a + S256x1x512.size a ≤ S256x32x512.size a
  inb_S256x32_S256x1_0_3 : ∀ a, (![0, 3] : Fin 2 → Nat) a + S256x1.size a ≤ S256x32.size a
  inb_S32x512_S1x512_3_0 : ∀ a, (![3, 0] : Fin 2 → Nat) a + S1x512.size a ≤ S32x512.size a
  inb_S256x32x512_S256x1x512_0_3_0 : ∀ a, (![0, 3, 0] : Fin 3 → Nat) a + S256x1x512.size a ≤ S256x32x512.size a
  inb_S256x32_S256x1_0_4 : ∀ a, (![0, 4] : Fin 2 → Nat) a + S256x1.size a ≤ S256x32.size a
  inb_S32x512_S1x512_4_0 : ∀ a, (![4, 0] : Fin 2 → Nat) a + S1x512.size a ≤ S32x512.size a
  inb_S256x32x512_S256x1x512_0_4_0 : ∀ a, (![0, 4, 0] : Fin 3 → Nat) a + S256x1x512.size a ≤ S256x32x512.size a
  inb_S256x32_S256x1_0_5 : ∀ a, (![0, 5] : Fin 2 → Nat) a + S256x1.size a ≤ S256x32.size a
  inb_S32x512_S1x512_5_0 : ∀ a, (![5, 0] : Fin 2 → Nat) a + S1x512.size a ≤ S32x512.size a
  inb_S256x32x512_S256x1x512_0_5_0 : ∀ a, (![0, 5, 0] : Fin 3 → Nat) a + S256x1x512.size a ≤ S256x32x512.size a
  inb_S256x32_S256x1_0_6 : ∀ a, (![0, 6] : Fin 2 → Nat) a + S256x1.size a ≤ S256x32.size a
  inb_S32x512_S1x512_6_0 : ∀ a, (![6, 0] : Fin 2 → Nat) a + S1x512.size a ≤ S32x512.size a
  inb_S256x32x512_S256x1x512_0_6_0 : ∀ a, (![0, 6, 0] : Fin 3 → Nat) a + S256x1x512.size a ≤ S256x32x512.size a
  inb_S256x32_S256x1_0_7 : ∀ a, (![0, 7] : Fin 2 → Nat) a + S256x1.size a ≤ S256x32.size a
  inb_S32x512_S1x512_7_0 : ∀ a, (![7, 0] : Fin 2 → Nat) a + S1x512.size a ≤ S32x512.size a
  inb_S256x32x512_S256x1x512_0_7_0 : ∀ a, (![0, 7, 0] : Fin 3 → Nat) a + S256x1x512.size a ≤ S256x32x512.size a
  inb_S256x32_S256x1_0_8 : ∀ a, (![0, 8] : Fin 2 → Nat) a + S256x1.size a ≤ S256x32.size a
  inb_S32x512_S1x512_8_0 : ∀ a, (![8, 0] : Fin 2 → Nat) a + S1x512.size a ≤ S32x512.size a
  inb_S256x32x512_S256x1x512_0_8_0 : ∀ a, (![0, 8, 0] : Fin 3 → Nat) a + S256x1x512.size a ≤ S256x32x512.size a
  inb_S256x32_S256x1_0_9 : ∀ a, (![0, 9] : Fin 2 → Nat) a + S256x1.size a ≤ S256x32.size a
  inb_S32x512_S1x512_9_0 : ∀ a, (![9, 0] : Fin 2 → Nat) a + S1x512.size a ≤ S32x512.size a
  inb_S256x32x512_S256x1x512_0_9_0 : ∀ a, (![0, 9, 0] : Fin 3 → Nat) a + S256x1x512.size a ≤ S256x32x512.size a
  inb_S256x32_S256x1_0_10 : ∀ a, (![0, 10] : Fin 2 → Nat) a + S256x1.size a ≤ S256x32.size a
  inb_S32x512_S1x512_10_0 : ∀ a, (![10, 0] : Fin 2 → Nat) a + S1x512.size a ≤ S32x512.size a
  inb_S256x32x512_S256x1x512_0_10_0 : ∀ a, (![0, 10, 0] : Fin 3 → Nat) a + S256x1x512.size a ≤ S256x32x512.size a
  inb_S256x32_S256x1_0_11 : ∀ a, (![0, 11] : Fin 2 → Nat) a + S256x1.size a ≤ S256x32.size a
  inb_S32x512_S1x512_11_0 : ∀ a, (![11, 0] : Fin 2 → Nat) a + S1x512.size a ≤ S32x512.size a
  inb_S256x32x512_S256x1x512_0_11_0 : ∀ a, (![0, 11, 0] : Fin 3 → Nat) a + S256x1x512.size a ≤ S256x32x512.size a
  inb_S256x32_S256x1_0_12 : ∀ a, (![0, 12] : Fin 2 → Nat) a + S256x1.size a ≤ S256x32.size a
  inb_S32x512_S1x512_12_0 : ∀ a, (![12, 0] : Fin 2 → Nat) a + S1x512.size a ≤ S32x512.size a
  inb_S256x32x512_S256x1x512_0_12_0 : ∀ a, (![0, 12, 0] : Fin 3 → Nat) a + S256x1x512.size a ≤ S256x32x512.size a
  inb_S256x32_S256x1_0_13 : ∀ a, (![0, 13] : Fin 2 → Nat) a + S256x1.size a ≤ S256x32.size a
  inb_S32x512_S1x512_13_0 : ∀ a, (![13, 0] : Fin 2 → Nat) a + S1x512.size a ≤ S32x512.size a
  inb_S256x32x512_S256x1x512_0_13_0 : ∀ a, (![0, 13, 0] : Fin 3 → Nat) a + S256x1x512.size a ≤ S256x32x512.size a
  inb_S256x32_S256x1_0_14 : ∀ a, (![0, 14] : Fin 2 → Nat) a + S256x1.size a ≤ S256x32.size a
  inb_S32x512_S1x512_14_0 : ∀ a, (![14, 0] : Fin 2 → Nat) a + S1x512.size a ≤ S32x512.size a
  inb_S256x32x512_S256x1x512_0_14_0 : ∀ a, (![0, 14, 0] : Fin 3 → Nat) a + S256x1x512.size a ≤ S256x32x512.size a
  inb_S256x32_S256x1_0_15 : ∀ a, (![0, 15] : Fin 2 → Nat) a + S256x1.size a ≤ S256x32.size a
  inb_S32x512_S1x512_15_0 : ∀ a, (![15, 0] : Fin 2 → Nat) a + S1x512.size a ≤ S32x512.size a
  inb_S256x32x512_S256x1x512_0_15_0 : ∀ a, (![0, 15, 0] : Fin 3 → Nat) a + S256x1x512.size a ≤ S256x32x512.size a
  inb_S256x32_S256x1_0_16 : ∀ a, (![0, 16] : Fin 2 → Nat) a + S256x1.size a ≤ S256x32.size a
  inb_S32x512_S1x512_16_0 : ∀ a, (![16, 0] : Fin 2 → Nat) a + S1x512.size a ≤ S32x512.size a
  inb_S256x32x512_S256x1x512_0_16_0 : ∀ a, (![0, 16, 0] : Fin 3 → Nat) a + S256x1x512.size a ≤ S256x32x512.size a
  inb_S256x32_S256x1_0_17 : ∀ a, (![0, 17] : Fin 2 → Nat) a + S256x1.size a ≤ S256x32.size a
  inb_S32x512_S1x512_17_0 : ∀ a, (![17, 0] : Fin 2 → Nat) a + S1x512.size a ≤ S32x512.size a
  inb_S256x32x512_S256x1x512_0_17_0 : ∀ a, (![0, 17, 0] : Fin 3 → Nat) a + S256x1x512.size a ≤ S256x32x512.size a
  inb_S256x32_S256x1_0_18 : ∀ a, (![0, 18] : Fin 2 → Nat) a + S256x1.size a ≤ S256x32.size a
  inb_S32x512_S1x512_18_0 : ∀ a, (![18, 0] : Fin 2 → Nat) a + S1x512.size a ≤ S32x512.size a
  inb_S256x32x512_S256x1x512_0_18_0 : ∀ a, (![0, 18, 0] : Fin 3 → Nat) a + S256x1x512.size a ≤ S256x32x512.size a
  inb_S256x32_S256x1_0_19 : ∀ a, (![0, 19] : Fin 2 → Nat) a + S256x1.size a ≤ S256x32.size a
  inb_S32x512_S1x512_19_0 : ∀ a, (![19, 0] : Fin 2 → Nat) a + S1x512.size a ≤ S32x512.size a
  inb_S256x32x512_S256x1x512_0_19_0 : ∀ a, (![0, 19, 0] : Fin 3 → Nat) a + S256x1x512.size a ≤ S256x32x512.size a
  inb_S256x32_S256x1_0_20 : ∀ a, (![0, 20] : Fin 2 → Nat) a + S256x1.size a ≤ S256x32.size a
  inb_S32x512_S1x512_20_0 : ∀ a, (![20, 0] : Fin 2 → Nat) a + S1x512.size a ≤ S32x512.size a
  inb_S256x32x512_S256x1x512_0_20_0 : ∀ a, (![0, 20, 0] : Fin 3 → Nat) a + S256x1x512.size a ≤ S256x32x512.size a
  inb_S256x32_S256x1_0_21 : ∀ a, (![0, 21] : Fin 2 → Nat) a + S256x1.size a ≤ S256x32.size a
  inb_S32x512_S1x512_21_0 : ∀ a, (![21, 0] : Fin 2 → Nat) a + S1x512.size a ≤ S32x512.size a
  inb_S256x32x512_S256x1x512_0_21_0 : ∀ a, (![0, 21, 0] : Fin 3 → Nat) a + S256x1x512.size a ≤ S256x32x512.size a
  inb_S256x32_S256x1_0_22 : ∀ a, (![0, 22] : Fin 2 → Nat) a + S256x1.size a ≤ S256x32.size a
  inb_S32x512_S1x512_22_0 : ∀ a, (![22, 0] : Fin 2 → Nat) a + S1x512.size a ≤ S32x512.size a
  inb_S256x32x512_S256x1x512_0_22_0 : ∀ a, (![0, 22, 0] : Fin 3 → Nat) a + S256x1x512.size a ≤ S256x32x512.size a
  inb_S256x32_S256x1_0_23 : ∀ a, (![0, 23] : Fin 2 → Nat) a + S256x1.size a ≤ S256x32.size a
  inb_S32x512_S1x512_23_0 : ∀ a, (![23, 0] : Fin 2 → Nat) a + S1x512.size a ≤ S32x512.size a
  inb_S256x32x512_S256x1x512_0_23_0 : ∀ a, (![0, 23, 0] : Fin 3 → Nat) a + S256x1x512.size a ≤ S256x32x512.size a
  inb_S256x32_S256x1_0_24 : ∀ a, (![0, 24] : Fin 2 → Nat) a + S256x1.size a ≤ S256x32.size a
  inb_S32x512_S1x512_24_0 : ∀ a, (![24, 0] : Fin 2 → Nat) a + S1x512.size a ≤ S32x512.size a
  inb_S256x32x512_S256x1x512_0_24_0 : ∀ a, (![0, 24, 0] : Fin 3 → Nat) a + S256x1x512.size a ≤ S256x32x512.size a
  inb_S256x32_S256x1_0_25 : ∀ a, (![0, 25] : Fin 2 → Nat) a + S256x1.size a ≤ S256x32.size a
  inb_S32x512_S1x512_25_0 : ∀ a, (![25, 0] : Fin 2 → Nat) a + S1x512.size a ≤ S32x512.size a
  inb_S256x32x512_S256x1x512_0_25_0 : ∀ a, (![0, 25, 0] : Fin 3 → Nat) a + S256x1x512.size a ≤ S256x32x512.size a
  inb_S256x32_S256x1_0_26 : ∀ a, (![0, 26] : Fin 2 → Nat) a + S256x1.size a ≤ S256x32.size a
  inb_S32x512_S1x512_26_0 : ∀ a, (![26, 0] : Fin 2 → Nat) a + S1x512.size a ≤ S32x512.size a
  inb_S256x32x512_S256x1x512_0_26_0 : ∀ a, (![0, 26, 0] : Fin 3 → Nat) a + S256x1x512.size a ≤ S256x32x512.size a
  inb_S256x32_S256x1_0_27 : ∀ a, (![0, 27] : Fin 2 → Nat) a + S256x1.size a ≤ S256x32.size a
  inb_S32x512_S1x512_27_0 : ∀ a, (![27, 0] : Fin 2 → Nat) a + S1x512.size a ≤ S32x512.size a
  inb_S256x32x512_S256x1x512_0_27_0 : ∀ a, (![0, 27, 0] : Fin 3 → Nat) a + S256x1x512.size a ≤ S256x32x512.size a
  inb_S256x32_S256x1_0_28 : ∀ a, (![0, 28] : Fin 2 → Nat) a + S256x1.size a ≤ S256x32.size a
  inb_S32x512_S1x512_28_0 : ∀ a, (![28, 0] : Fin 2 → Nat) a + S1x512.size a ≤ S32x512.size a
  inb_S256x32x512_S256x1x512_0_28_0 : ∀ a, (![0, 28, 0] : Fin 3 → Nat) a + S256x1x512.size a ≤ S256x32x512.size a
  inb_S256x32_S256x1_0_29 : ∀ a, (![0, 29] : Fin 2 → Nat) a + S256x1.size a ≤ S256x32.size a
  inb_S32x512_S1x512_29_0 : ∀ a, (![29, 0] : Fin 2 → Nat) a + S1x512.size a ≤ S32x512.size a
  inb_S256x32x512_S256x1x512_0_29_0 : ∀ a, (![0, 29, 0] : Fin 3 → Nat) a + S256x1x512.size a ≤ S256x32x512.size a
  inb_S256x32_S256x1_0_30 : ∀ a, (![0, 30] : Fin 2 → Nat) a + S256x1.size a ≤ S256x32.size a
  inb_S32x512_S1x512_30_0 : ∀ a, (![30, 0] : Fin 2 → Nat) a + S1x512.size a ≤ S32x512.size a
  inb_S256x32x512_S256x1x512_0_30_0 : ∀ a, (![0, 30, 0] : Fin 3 → Nat) a + S256x1x512.size a ≤ S256x32x512.size a
  inb_S256x32_S256x1_0_31 : ∀ a, (![0, 31] : Fin 2 → Nat) a + S256x1.size a ≤ S256x32.size a
  inb_S32x512_S1x512_31_0 : ∀ a, (![31, 0] : Fin 2 → Nat) a + S1x512.size a ≤ S32x512.size a
  inb_S256x32x512_S256x1x512_0_31_0 : ∀ a, (![0, 31, 0] : Fin 3 → Nat) a + S256x1x512.size a ≤ S256x32x512.size a
  shapeCasts_S16384x32x512_S32x512x32x512 : S16384x32x512.ShapeCasts S32x512x32x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x32.size a ≤ S16384x32.size a
  hwx0_0 : ∀ i : grid0.Coords, EltTy.bits .f32 = 32 ∨ (Rect.block (s := S16384x32) S256x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S32x512.size a
  hwx0_1 : ∀ i : grid0.Coords, EltTy.bits .f32 = 32 ∨ (Rect.block (s := S32x512) S32x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x512.size a ≤ S32x512.size a
  hwx0_2 : ∀ i : grid0.Coords, EltTy.bits .f32 = 32 ∨ (Rect.block (s := S32x512) S32x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x32x512.size a ≤ S16384x32x512.size a
  hwx0_3 : ∀ i : grid0.Coords, EltTy.bits .f32 = 32 ∨ (Rect.block (s := S16384x32x512) S256x32x512.size (cc0_transform_3 i) (hinb0_3 i)).WholeWords (EltTy.packing .f32)

variable [Facts₀]

abbrev win0_0 : Pipeline.Window sig grid0 :=
  Pipeline.Window.ofSpec (Memref.whole main_v0) S256x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x32x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x512x32 : Shape := ⟨3, ![32, 512, 32]⟩
abbrev S32x512 : Shape := ⟨2, ![32, 512]⟩
abbrev S32x512x32x1 : Shape := ⟨4, ![32, 512, 32, 1]⟩
abbrev S1x1x32x512 : Shape := ⟨4, ![1, 1, 32, 512]⟩
abbrev S32x512x32x512 : Shape := ⟨4, ![32, 512, 32, 512]⟩

abbrev nBuf : Space → Nat
  | .hbm => 11
  | .vmem => 0
  | .smem => 0
  | _ => 0

abbrev bufTy : (tb : Table) → Fin (tcTables nBuf tb) → BufTy
  | .hbm, ⟨0, _⟩ => ⟨S32x512x32, .f32⟩
  | .hbm, ⟨1, _⟩ => ⟨S32x512, .f32⟩
  | .hbm, ⟨2, _⟩ => ⟨S32x512, .f32⟩
  | .hbm, ⟨3, _⟩ => ⟨S32x512x32x1, .f32⟩
  | .hbm, ⟨4, _⟩ => ⟨S1x1x32x512, .f32⟩
  | .hbm, ⟨5, _⟩ => ⟨S32x512x32x512, .f32⟩
  | .hbm, ⟨6, _⟩ => ⟨S32x512x32x512, .f32⟩
  | .hbm, ⟨7, _⟩ => ⟨S32x512x32x512, .f32⟩
  | .hbm, ⟨8, _⟩ => ⟨S1x1x32x512, .f32⟩
  | .hbm, ⟨9, _⟩ => ⟨S32x512x32x512, .f32⟩
  | .hbm, ⟨10, _⟩ => ⟨S32x512x32x512, .f32⟩
  | _, _ => ⟨S32x512x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  bcast_S32x512x32_S32x512x32x1_0_1_2 : S32x512x32.BroadcastsInDim S32x512x32x1 (![0, 1, 2] : Fin 3 → Fin S32x512x32x1.rank)
  bcast_S32x512_S1x1x32x512_2_3 : S32x512.BroadcastsInDim S1x1x32x512 (![2, 3] : Fin 2 → Fin S1x1x32x512.rank)
  bcast_S32x512x32x1_S32x512x32x512_0_1_2_3 : S32x512x32x1.BroadcastsInDim S32x512x32x512 (![0, 1, 2, 3] : Fin 4 → Fin S32x512x32x512.rank)
  bcast_S1x1x32x512_S32x512x32x512_0_1_2_3 : S1x1x32x512.BroadcastsInDim S32x512x32x512 (![0, 1, 2, 3] : Fin 4 → Fin S32x512x32x512.rank)

variable [Facts₀]

class Facts : Prop extends Facts₀ where

variable [Facts]
-- ==== Proof.LibAffineLayouts.lean ====
/-
  Layout operations of a per-channel affine map, read at an index given by coordinates.

  A kernel that computes `x[r, c] * w[c, d] + b[c, d]` one channel `c` at a time broadcasts a COLUMN `[a, 1]`
  (the rows' entries of channel `c`) and a ROW `[1, b]` (the channel's weights) to a common `[a, b]` tile,
  and stores the tile with a unit axis put in the middle, `[a, 1, b]`. Around it the rows are a flattening of
  two leading axes: `[p, q, c]` viewed as `[p * q, c]` on the way in and `[p * q, c, d]` viewed as
  `[p, q, c, d]` on the way out. Each lemma reads one of these operations at coordinates:

  * `broadcastTo_a1_ab_apply`   — a column `[a, 1]` broadcast to `[a, b]` at `(p, c)` is the column at row `p`;
  * `shapeCast_ab_a1b_apply`    — an `[a, b]` tile cast to `[a, 1, b]` at `(p, u, c)` is the tile at `(p, c)`;
  * `shapeCast_abc_nc_apply`    — `[a, b, c]` flattened to `[n, c]` at row `p * b + q` is the operand at `(p, q, ·)`;
  * `shapeCast_ncd_abcd_apply`  — `[n, c, d]` unflattened to `[a, b, c, d]` at `(p, q, ·, ·)` is the operand at row `p * b + q`;
  * `read_congr`                — two indices with equal coordinates read the same entry;
  * `affineTile_apply`          — on the extended reals, the tile `column * row + row'` cast to `[a, 1, b]`, at
    `(p, u, c)`, is `column p * row c + row' c`.
-/
import Idealize.ShloMosaic.Lib.ValueLayout
import Idealize.ShloMosaic.PureOps.Ideal

noncomputable section

namespace AffineLayouts

open Idealize.ShloMosaic Idealize.ShloMosaic.ValueIdx

variable {α : Type}

/-- Two indices with the same coordinates read the same entry. -/
theorem read_congr {s : Shape} {β : Type} (f : s.Idx → β) {i j : s.Idx} (h : ∀ a, (i a).val = (j a).val) : f i = f j :=
  congrArg f (funext fun a => Fin.ext (h a))

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` tile cast to `[a, 1, b]` reads, at `(p, u, c)`, the tile at `(p, c)`: the unit axis in the middle
does not move the row-major position. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (c : Fin b) :
    shapeCast ⟨3, ![a, 1, b]⟩ x h (ix3 p u c) = x (ix2 p c) :=
  shapeCast_apply x h _ _ (by
    have hu : u.val = 0 := by omega
    rw [Shape.rowMajor_val_three, Shape.rowMajor_val_two]
    show p.val * b + c.val = (p.val * 1 + u.val) * b + c.val
    rw [hu, Nat.mul_one, Nat.add_zero])

/-- An `[a, b, c]` array flattened to `[n, c]` (its two leading axes merged, `n = a * b`) reads, at row
`r = p * b + q` and column `k`, the operand at `(p, q, k)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (k : Fin c) (r : Fin n)
    (hr : r.val = p.val * b + q.val) :
    shapeCast ⟨2, ![n, c]⟩ x h (ix2 r k) = x (ix3 p q k) :=
  shapeCast_apply x h _ _ (by
    rw [Shape.rowMajor_val_three, Shape.rowMajor_val_two]
    show (p.val * b + q.val) * c + k.val = r.val * c + k.val
    rw [hr])

/-- An `[n, c, d]` array unflattened to `[a, b, c, d]` (its leading axis split, `n = a * b`) reads, at
`(p, q, k, l)`, the operand at row `r = p * b + q`, `(r, k, l)`. -/
theorem shapeCast_ncd_abcd_apply {a b c d n : ℕ} (x : (⟨3, ![n, c, d]⟩ : Shape).Idx → α)
    (h : (⟨3, ![n, c, d]⟩ : Shape).ShapeCasts ⟨4, ![a, b, c, d]⟩) (p : Fin a) (q : Fin b) (k : Fin c) (l : Fin d)
    (r : Fin n) (hr : r.val = p.val * b + q.val) :
    shapeCast ⟨4, ![a, b, c, d]⟩ x h (ix4 p q k l) = x (ix3 r k l) :=
  shapeCast_apply x h _ _ (by
    rw [Shape.rowMajor_val_three, Shape.rowMajor_val_four]
    show (r.val * c + k.val) * d + l.val = ((p.val * b + q.val) * c + k.val) * d + l.val
    rw [hr])

/-- On the extended reals: the tile `column * row + row'` over `[a, b]`, stored as `[a, 1, b]`, holds at
`(p, u, c)` the number `column p * row c + row' c`. -/
theorem affineTile_apply {a b : ℕ} {φ : FTy} (col : FVec Ideal ⟨2, ![a, 1]⟩ φ) (row row' : FVec Ideal ⟨2, ![1, b]⟩ φ)
    (hc : (⟨2, ![a, 1]⟩ : Shape).Broadcasts ⟨2, ![a, b]⟩) (hr : (⟨2, ![1, b]⟩ : Shape).Broadcasts ⟨2, ![a, b]⟩)
    (hs : (⟨2, ![a, b]⟩ : Shape).ShapeCasts ⟨3, ![a, 1, b]⟩) (p : Fin a) (u : Fin 1) (c : Fin b) :
    shapeCast ⟨3, ![a, 1, b]⟩
        (addf (mulf (broadcastTo ⟨2, ![a, b]⟩ col hc) (broadcastTo ⟨2, ![a, b]⟩ row hr)) (broadcastTo ⟨2, ![a, b]⟩ row' hr)) hs
        (ix3 p u c)
      = col (ix2 p (0 : Fin 1)) * row (ix2 (0 : Fin 1) c) + row' (ix2 (0 : Fin 1) c) := by
  rw [shapeCast_ab_a1b_apply, addf_apply, mulf_apply, broadcastTo_a1_ab_apply, broadcastTo_1b_ab_apply,
    broadcastTo_1b_ab_apply]

end AffineLayouts

end
-- ==== Proof.BodyValue.lean ====
/-
  What one grid point of the kernel writes, as one function of its three input blocks.

  At a grid point the body holds a block `x0` of 256 rows of the flattened input (256 × 32: row, channel), and the
  whole weight and bias tables `x1`, `x2` (32 × 512: channel, feature). For each channel `c = 0 … 31` it takes
  column `c` of `x0` and row `c` of `x1` and `x2`, forms the 256 × 512 tile `column * row + row'`, and stores it
  as the slab `[·, c, ·]` of the 256 × 32 × 512 output block. The 32 slabs tile the block, so the block ends at

      blockAffine x0 x1 x2 (r, c, d) = x0 (r, c) * x1 (c, d) + x2 (c, d)

  on the extended reals: every slab's payload is this function read through the slab's rectangle
  (`channel_slab`), and an index of the block lies in some slab (the generated `cover0_3`).
-/
import proofs.«126002_j20727512171029_2_alg».proof.Proof.Gen.KernelIdeal.Frame
import proofs.«126002_j20727512171029_2_alg».proof.Proof.LibAffineLayouts

set_option maxRecDepth 16384

noncomputable section

namespace Cert.KernelIdeal.BodyValue

open Cert.KernelIdeal Cert.KernelIdeal.Gen Idealize.ShloMosaic Idealize.ShloMosaic.ValueIdx Idealize.ShloMosaic.TcCoe

/-- The output block of one grid point from its input blocks: entry `(r, c, d)` is row `r`'s value in channel `c`
    times the channel's weight for feature `d`, plus the channel's bias for feature `d`. -/
def blockAffine (x0 : Vec Ideal S256x32 .f32) (x1 x2 : Vec Ideal S32x512 .f32) : Vec Ideal S256x32x512 .f32 :=
  fun y => x0 (ix2 (y 0) (y 1)) * x1 (ix2 (y 1) (y 2)) + x2 (ix2 (y 1) (y 2))

/-- Channel `c`'s slab: the tile `column c of x0 * row c of x1 + row c of x2`, stored with a unit channel axis, is
    `blockAffine` read through the slab's rectangle `[0 … 255] × {c} × [0 … 511]`. -/
theorem channel_slab (c : Nat) (inb0 : ∀ a, (![0, c] : Fin 2 → Nat) a + S256x1.size a ≤ S256x32.size a)
    (inb1 : ∀ a, (![c, 0] : Fin 2 → Nat) a + S1x512.size a ≤ S32x512.size a)
    (inb2 : ∀ a, (![0, c, 0] : Fin 3 → Nat) a + S256x1x512.size a ≤ S256x32x512.size a)
    (hc : S256x1.Broadcasts S256x512) (hr : S1x512.Broadcasts S256x512) (hs : S256x512.ShapeCasts S256x1x512)
    (x0 : Vec Ideal S256x32 .f32) (x1 x2 : Vec Ideal S32x512 .f32) (x : S256x1x512.Idx) :
    shapeCast S256x1x512
        (addf (F := Ideal) (φ := .f32) (mulf (F := Ideal) (φ := .f32) (broadcastTo S256x512 (View.ld x0 (Rect.unit (s := S256x32) ![0, c] S256x1.size inb0)) hc)
            (broadcastTo S256x512 (View.ld x1 (Rect.unit (s := S32x512) ![c, 0] S1x512.size inb1)) hr))
          (broadcastTo S256x512 (View.ld x2 (Rect.unit (s := S32x512) ![c, 0] S1x512.size inb1)) hr)) hs x
      = blockAffine x0 x1 x2 ((Rect.unit (s := S256x32x512) ![0, c, 0] S256x1x512.size inb2).emb x) := by
  obtain ⟨p, u, d, rfl⟩ : ∃ (p : Fin 256) (u : Fin 1) (d : Fin 512), x = ix3 p u d := ⟨x 0, x 1, x 2, eq_ix3 x⟩
  refine (AffineLayouts.affineTile_apply _ _ _ hc hr hs p u d).trans ?_
  unfold blockAffine
  have hu : u.val = 0 := by omega
  refine congrArg₂ (· + ·) (congrArg₂ (· * ·) (AffineLayouts.read_congr x0 ?_) (AffineLayouts.read_congr x1 ?_)) (AffineLayouts.read_congr x2 ?_)
  · intro a
    match a with
    | ⟨0, _⟩ => rfl
    | ⟨1, _⟩ => show c + 1 * 0 = c + 1 * u.val; rw [hu]
  · intro a
    match a with
    | ⟨0, _⟩ => show c + 1 * 0 = c + 1 * u.val; rw [hu]
    | ⟨1, _⟩ => rfl
  · intro a
    match a with
    | ⟨0, _⟩ => show c + 1 * 0 = c + 1 * u.val; rw [hu]
    | ⟨1, _⟩ => rfl

/-- After the body, the output block is `blockAffine` of the input blocks: each of the 32 stores is one channel's slab,
    and the slabs cover the block. -/
theorem out0_3_eq (x0 : Vec Ideal S256x32 .f32) (x1 x2 : Vec Ideal S32x512 .f32) :
    out0_3 (F := Ideal) x0 x1 x2 = blockAffine x0 x1 x2 := by
  funext y
  unfold out0_3
  refine View.canon_apply_of_pieces (blockAffine x0 x1 x2) _ ?_ y (cover0_3 _ _ _ _ _ _ _ _ _ _ _ _ _ _ _ _ _ _ _ _ _ _ _ _ _ _ _ _ _ _ _ _ y)
  intro p hp x
  simp only [List.mem_cons, List.mem_nil_iff, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, shapeCast_self]
    exact channel_slab _ _ _ _ _ _ _ x0 x1 x2 x

end Cert.KernelIdeal.BodyValue

end
-- ==== Proof.Spec.lean ====
/-
  The per-channel affine map, stated once, and its flattened form.

  `channelAffine x w b (p, q, c, d) = x (p, q, c) * w (c, d) + b (c, d)` on the extended reals, for `x` of
  shape 32 × 512 × 32 (batch, position, channel) and weight and bias tables `w`, `b` of shape 32 × 512
  (channel, feature): every channel of every (batch, position) row gets its own scalar-to-vector affine map.

  The same map over the 16384 = 32 · 512 rows with batch and position merged is
  `rowsAffine xf w b (r, c, d) = xf (r, c) * w (c, d) + b (c, d)`; merging the two leading axes of `x`,
  mapping, and splitting the rows again is `channelAffine` (`unflatten_rowsAffine`): row `p * 512 + q` of the
  merged array is row `(p, q)` of `x`, on the way in and on the way out. No algebra of the extended reals is
  used: both sides are the same product and the same sum of the same three entries.
-/
import proofs.«126002_j20727512171029_2_alg».proof.Proof.LibAffineLayouts

noncomputable section

namespace ChannelAffine

open Idealize.ShloMosaic Idealize.ShloMosaic.ValueIdx

/-- Entry `(p, q, c, d)`: the value of channel `c` at batch `p`, position `q`, times the channel's weight for
    feature `d`, plus the channel's bias for feature `d`. -/
def channelAffine (x : FVec Ideal ⟨3, ![32, 512, 32]⟩ .f32) (w b : FVec Ideal ⟨2, ![32, 512]⟩ .f32) :
    FVec Ideal ⟨4, ![32, 512, 32, 512]⟩ .f32 :=
  fun i => x (ix3 (i 0) (i 1) (i 2)) * w (ix2 (i 2) (i 3)) + b (ix2 (i 2) (i 3))

/-- The same map over merged rows: entry `(r, c, d)` from row `r`'s channel `c`. -/
def rowsAffine (xf : FVec Ideal ⟨2, ![16384, 32]⟩ .f32) (w b : FVec Ideal ⟨2, ![32, 512]⟩ .f32) :
    FVec Ideal ⟨3, ![16384, 32, 512]⟩ .f32 :=
  fun i => xf (ix2 (i 0) (i 1)) * w (ix2 (i 1) (i 2)) + b (ix2 (i 1) (i 2))

/-- Merge batch and position, map the rows, split them again: the per-channel affine map of the unmerged input. -/
theorem unflatten_rowsAffine (x : FVec Ideal ⟨3, ![32, 512, 32]⟩ .f32) (w b : FVec Ideal ⟨2, ![32, 512]⟩ .f32)
    (h1 : (⟨3, ![32, 512, 32]⟩ : Shape).ShapeCasts ⟨2, ![16384, 32]⟩)
    (h2 : (⟨3, ![16384, 32, 512]⟩ : Shape).ShapeCasts ⟨4, ![32, 512, 32, 512]⟩) :
    shapeCast ⟨4, ![32, 512, 32, 512]⟩ (rowsAffine (shapeCast ⟨2, ![16384, 32]⟩ x h1) w b) h2 = channelAffine x w b := by
  funext i
  obtain ⟨p, q, k, l, rfl⟩ : ∃ (p : Fin 32) (q : Fin 512) (k : Fin 32) (l : Fin 512), i = ix4 p q k l :=
    ⟨i 0, i 1, i 2, i 3, eq_ix4 i⟩
  have hr : p.val * 512 + q.val < 16384 := by have := p.isLt; have := q.isLt; omega
  refine (AffineLayouts.shapeCast_ncd_abcd_apply _ h2 p q k l ⟨p.val * 512 + q.val, hr⟩ rfl).trans ?_
  show shapeCast ⟨2, ![16384, 32]⟩ x h1 (ix2 ⟨p.val * 512 + q.val, hr⟩ k) * w (ix2 k l) + b (ix2 k l)
    = x (ix3 p q k) * w (ix2 k l) + b (ix2 k l)
  rw [AffineLayouts.shapeCast_abc_nc_apply x h1 p q k ⟨p.val * 512 + q.val, hr⟩ rfl]

end ChannelAffine

end
-- ==== Proof.KernelValue.lean ====
/-
  What the idealized kernel's result array holds after its run.

  The program is: merge batch and position of `x` (a reshape on the host), one pipelined region over 64 grid points,
  split the rows of the region's output again (a reshape on the host). At grid point `t` the region stages rows
  `256 t … 256 t + 255` of the merged input, the whole weight and bias tables, and writes back rows
  `256 t … 256 t + 255` of its 16384 × 32 × 512 output.

  * `flushed_eq`: what point `t` writes back is block `t` of `rowsAffine` of the arrays the region finds — the body's
    block is `blockAffine` of the three input blocks (the body-value module), the input block's row `r` is the array's row
    `256 t + r`, and so is the output block's;
  * `cover`: row `r` of the output lies in the block of point `r / 256`;
  * `region_array`: so the region's output array ends at `rowsAffine` of the merged input and the two tables;
  * `merged_input`, `result_eq`: the host reshape before the region and the one after it, read off the program;
  * `run`: every weakly fair execution terminates with the result at `channelAffine` of the arguments (the
    flatten–map–unflatten identity of the specification) and the arguments unchanged.
-/
import proofs.«126002_j20727512171029_2_alg».proof.Proof.BodyValue
import proofs.«126002_j20727512171029_2_alg».proof.Proof.Spec
import Idealize.ShloMosaic.Lib.Pipeline.Value
import Idealize.ShloMosaic.Lib.StableHlo.Run

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.ValueIdx ChannelAffine Cert.KernelIdeal.BodyValue
open Idealize.ShloMosaic.Pipeline (Dat)

variable (m : (ℓ : Loc nD τ sig) → Buf (Elt Ideal) ℓ) (ρ : Dev nD → PrngReg)

/-- The printed index maps over the 64 grid points: the row windows (input 0, output 3) sit at block `t` of their
    leading axis and block 0 elsewhere; the two tables are one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- At point `t`, for any arrays under the four windows: `blockAffine` of the three input blocks, at an index `j` of the
    output block, is `rowsAffine` of the arrays at the array index under `j` — row `r` of the row windows' blocks is
    row `256 t + r` of their arrays, and the tables' one block is the whole table. -/
theorem block_read (t : Fin cfg0.N) (j : S256x32x512.Idx) (A0 : S16384x32.Idx → Elt Ideal .f32)
    (A1 A2 : S32x512.Idx → Elt Ideal .f32) :
    blockAffine (((cfg0.win 0).blk t).view.read (Elt Ideal) A0) (((cfg0.win 1).blk t).view.read (Elt Ideal) A1)
        (((cfg0.win 2).blk t).view.read (Elt Ideal) A2) j
      = rowsAffine A0 A1 A2 (((cfg0.win 3).blk t).view.emb j) := by
  obtain ⟨e0, e1, e2, e3, e4, e5, e6, e7, e8⟩ := idx_facts t
  show A0 (((cfg0.win 0).blk t).view.emb (ix2 (j 0) (j 1)))
        * A1 (((cfg0.win 1).blk t).view.emb (ix2 (j 1) (j 2)))
        + A2 (((cfg0.win 2).blk t).view.emb (ix2 (j 1) (j 2)))
      = A0 (ix2 ((((cfg0.win 3).blk t).view.emb j) 0) ((((cfg0.win 3).blk t).view.emb j) 1))
        * A1 (ix2 ((((cfg0.win 3).blk t).view.emb j) 1) ((((cfg0.win 3).blk t).view.emb j) 2))
        + A2 (ix2 ((((cfg0.win 3).blk t).view.emb j) 1) ((((cfg0.win 3).blk t).view.emb j) 2))
  have hj0 : (j 0).val < 256 := (j 0).isLt
  have hj1 : (j 1).val < 32 := (j 1).isLt
  have hj2 : (j 2).val < 512 := (j 2).isLt
  refine congrArg₂ (· + ·) (congrArg₂ (· * ·) (AffineLayouts.read_congr A0 ?_) (AffineLayouts.read_congr A1 ?_))
    (AffineLayouts.read_congr A2 ?_)
  · intro a
    match a with
    | ⟨0, _⟩ => show win0_0.index t (0 : Fin 2) * 256 + 1 * (j 0).val = win0_3.index t (0 : Fin 3) * 256 + 1 * (j 0).val; omega
    | ⟨1, _⟩ => show win0_0.index t (1 : Fin 2) * 32 + 1 * (j 1).val = win0_3.index t (1 : Fin 3) * 32 + 1 * (j 1).val; omega
  · intro a
    match a with
    | ⟨0, _⟩ => show win0_1.index t (0 : Fin 2) * 32 + 1 * (j 1).val = win0_3.index t (1 : Fin 3) * 32 + 1 * (j 1).val; omega
    | ⟨1, _⟩ => show win0_1.index t (1 : Fin 2) * 512 + 1 * (j 2).val = win0_3.index t (2 : Fin 3) * 512 + 1 * (j 2).val; omega
  · intro a
    match a with
    | ⟨0, _⟩ => show win0_2.index t (0 : Fin 2) * 32 + 1 * (j 1).val = win0_3.index t (1 : Fin 3) * 32 + 1 * (j 1).val; omega
    | ⟨1, _⟩ => show win0_2.index t (1 : Fin 2) * 512 + 1 * (j 2).val = win0_3.index t (2 : Fin 3) * 512 + 1 * (j 2).val; omega

/-- WHAT POINT `t` WRITES BACK is block `t` of `rowsAffine` of the arrays as the region finds them. -/
theorem flushed_eq (c : Dev nD) (t : Fin cfg0.N) :
    (dats m 0 c).flushed 3 t
      = ((cfg0.win 3).blk t).view.read (Elt Ideal) (rowsAffine (V m c main_v0) (V m c main_arg1) (V m c main_arg2)) := by
  show (cfg0.win 3).cut (grid0.coords t) ((dats m 0 c).after 3 t) = _
  rw [after0_3]
  refine (congrArg ((cfg0.win 3).cut (grid0.coords t)) (out0_3_eq (iblk m c 0 t) (iblk m c 1 t) (iblk m c 2 t))).trans ?_
  funext j
  exact block_read t j (V m c main_v0) (V m c main_arg1) (V m c main_arg2)

/-- An index of the output array is in point `t`'s block iff each coordinate is in the block's range on its axis. -/
theorem mem_blk (t : Fin cfg0.N) (i : S16384x32x512.Idx) :
    i ∈ ((cfg0.win 3).blk t).view.set ↔ ∀ a : Fin 3, win0_3.index t a * S256x32x512.size a ≤ (i a).val
      ∧ (i a).val < win0_3.index t a * S256x32x512.size a + S256x32x512.size a := by
  show i ∈ ((View.whole main_v1).slice (win0_3.rect t)).set ↔ _
  rw [View.set_slice_whole, Rect.mem_set_unit]
  exact Iff.rfl

/-- Every index of the output array is in some point's block: row `r` in the block of point `r / 256`. -/
theorem cover (i : S16384x32x512.Idx) :
    ∃ t : Fin cfg0.N, (cfg0.win 3).flush t = true ∧ i ∈ ((cfg0.win 3).blk t).view.set := by
  have hi0 : (i 0).val < 16384 := (i 0).isLt
  have hi1 : (i 1).val < 32 := (i 1).isLt
  have hi2 : (i 2).val < 512 := (i 2).isLt
  have hN : cfg0.N = 64 := N_0
  have ht : (i 0).val / 256 < cfg0.N := by rw [hN]; omega
  refine ⟨⟨(i 0).val / 256, ht⟩, flush0_3 _, ?_⟩
  rw [mem_blk]
  obtain ⟨-, -, -, -, -, -, e6, e7, e8⟩ := idx_facts ⟨(i 0).val / 256, ht⟩
  have e6' : win0_3.index ⟨(i 0).val / 256, ht⟩ (0 : Fin 3) = (i 0).val / 256 := e6
  intro a
  match a with
  | ⟨0, _⟩ =>
    show win0_3.index ⟨(i 0).val / 256, ht⟩ (0 : Fin 3) * 256 ≤ (i 0).val
      ∧ (i 0).val < win0_3.index ⟨(i 0).val / 256, ht⟩ (0 : Fin 3) * 256 + 256
    omega
  | ⟨1, _⟩ =>
    show win0_3.index ⟨(i 0).val / 256, ht⟩ (1 : Fin 3) * 32 ≤ (i 1).val
      ∧ (i 1).val < win0_3.index ⟨(i 0).val / 256, ht⟩ (1 : Fin 3) * 32 + 32
    omega
  | ⟨2, _⟩ =>
    show win0_3.index ⟨(i 0).val / 256, ht⟩ (2 : Fin 3) * 512 ≤ (i 2).val
      ∧ (i 2).val < win0_3.index ⟨(i 0).val / 256, ht⟩ (2 : Fin 3) * 512 + 512
    omega

/-- THE REGION'S OUTPUT ARRAY after the run: `rowsAffine` of the arrays the region finds. -/
theorem region_array (c : Dev nD) :
    (dats m 0 c).arrAt 3 cfg0.N = rowsAffine (V m c main_v0) (V m c main_arg1) (V m c main_arg2) :=
  (dats m 0 c).arrAt_eq_of_cover 3 _ (fun t _ => flushed_eq m c t) cover

/-- The array the region's row window stages is the host's reshape of the first argument: batch and position merged. -/
theorem merged_input (c : Dev nD) :
    (V m c main_v0 : S16384x32.Idx → Elt Ideal .f32)
      = shapeCast S16384x32 (m ((c : Thread nD τ).loc main_arg0)) shapeCasts_S32x512x32_S16384x32 := by
  show StableHlo.after hostOps0 (fun b => m (c, b)) (Proc.devRef .tc main_v0) = _
  after_results
  rfl

/-- The program's result is the host's reshape of the region's output array: the merged rows split again. -/
theorem result_eq (c : Dev nD) :
    (Pipeline.afterTail₀ cfgs (dats m) 0 (V0 m) [hostOps1] c main_v2 : S32x512x32x512.Idx → Elt Ideal .f32)
      = shapeCast S32x512x32x512 ((dats m 0 c).arrAt 3 cfg0.N) shapeCasts_S16384x32x512_S32x512x32x512 := by
  unfold Pipeline.afterTail₀
  show StableHlo.after hostOps1 _ (Proc.devRef .tc main_v2) = _
  after_results
  exact congrArg (fun y => shapeCast S32x512x32x512 y shapeCasts_S16384x32x512_S32x512x32x512)
    (Pipeline.withArrays_arr spec0 launch0.win.arr_inj c _ _ 3)

/-- The result array as one function of the arguments: the per-channel affine map. -/
theorem result_value (c : Dev nD) :
    (Pipeline.afterTail₀ cfgs (dats m) 0 (V0 m) [hostOps1] c main_v2 : S32x512x32x512.Idx → Elt Ideal .f32)
      = channelAffine (m ((c : Thread nD τ).loc main_arg0)) (m ((c : Thread nD τ).loc main_arg1))
          (m ((c : Thread nD τ).loc main_arg2)) := by
  rw [result_eq, region_array, merged_input, V_main_arg1, V_main_arg2]
  exact unflatten_rowsAffine _ _ _ _ _

/-- The idealized kernel's run: every weakly fair execution terminates, the result at the per-channel affine map of the
    arguments, the arguments unchanged. -/
theorem run : θ_run defs (onTc (τ := τ) (main (F := Ideal))) ⟨m, fun _ => 0, ρ⟩ fun r => ∀ c : Dev nD,
      r.2.mem ((c.tc : Thread nD τ).loc main_v2)
        = channelAffine (m ((c : Thread nD τ).loc main_arg0)) (m ((c : Thread nD τ).loc main_arg1))
            (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v2 (Pipeline.mem_restRefs_of main_v2 (by decide) (by decide))).trans (result_value m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c))),
       ((h c).1 2).trans (((dats m 0 c).arrAt_in 2 rfl _).trans ((A_eq m c 2).trans (V_main_arg2 m c)))⟩)
    (run_main m ρ)

end Cert.KernelIdeal.KernelValue

end
-- ==== Proof.RefValue.lean ====
/-
  The reference computes the per-channel affine map.

  Its eight host operations broadcast `x` along a new trailing feature axis and the two tables along new leading
  batch and position axes, multiply, and add. Read at an index `(p, q, c, d)` (the generated read-at-an-index
  lemmas, one operation at a time), the broadcasts pick `x (p, q, c)`, `w (c, d)` and `b (c, d)`: the reference's
  result is `channelAffine` of its arguments, entry by entry, as extended reals.
-/
import proofs.«126002_j20727512171029_2_alg».proof.Proof.Gen.ReferenceIdeal.Read
import proofs.«126002_j20727512171029_2_alg».proof.Proof.Spec

noncomputable section

namespace Cert.ReferenceIdeal.RefValue

open Cert.ReferenceIdeal Cert.ReferenceIdeal.Gen Idealize.ShloMosaic Idealize.ShloMosaic.ValueIdx ChannelAffine

/-- The last stage of the reference, at every index, is the affine map of the three entries the broadcasts select. -/
theorem reference_eq (x : FVec Ideal S32x512x32 .f32) (w b : FVec Ideal S32x512 .f32) :
    Read.val_main_v7 (F := Ideal) x w b = channelAffine x w b := by
  funext i
  rw [Read.val_main_v7_apply, Read.val_main_v4_apply, Read.val_main_v2_apply, Read.val_main_v0_apply,
    Read.val_main_v3_apply, Read.val_main_v1_apply, Read.val_main_v6_apply, Read.val_main_v5_apply]
  unfold channelAffine
  refine congrArg₂ (· + ·) (congrArg₂ (· * ·) (AffineLayouts.read_congr x ?_) (AffineLayouts.read_congr w ?_))
    (AffineLayouts.read_congr b ?_)
  · intro a
    match a with
    | ⟨0, _⟩ => rfl
    | ⟨1, _⟩ => rfl
    | ⟨2, _⟩ => rfl
  · intro a
    match a with
    | ⟨0, _⟩ => rfl
    | ⟨1, _⟩ => rfl
  · intro a
    match a with
    | ⟨0, _⟩ => rfl
    | ⟨1, _⟩ => rfl

end Cert.ReferenceIdeal.RefValue

end
-- ==== Proof.lean ====
/-
  The kernel computes the reference's per-channel affine map.

  Both programs take `x` (32 × 512 × 32: batch, position, channel) and two tables `w`, `b` (32 × 512: channel,
  feature) and return the 32 × 512 × 32 × 512 array with entry `(p, q, c, d) = x (p, q, c) * w (c, d) + b (c, d)`.
  The reference forms it by broadcasts, one product and one sum on the host. The kernel merges batch and position
  into 16384 rows, runs 64 grid points of 256 rows each — a point builds its 256 × 32 × 512 block one channel at a
  time, a 256 × 512 tile `column * row + row'` per channel —, and splits the rows again.

  On the extended reals the two results are the same product and sum of the same three entries, at every index:
  no law of arithmetic is used, only where each entry comes from, so the inputs' finiteness is never opened.

  * the frames of the two kernel programs are the generated ones; the reference's is its generated run;
  * the ideal pass rewrote nothing, so `preserves` is trivial;
  * `algebraic`: the kernel's run ends at `channelAffine` of its arguments (the kernel-value module), the reference's at
    its last stage, which is `channelAffine` of its arguments (the reference-value module), and the arguments agree.
-/
import proofs.«126002_j20727512171029_2_alg».proof.Defs
import proofs.«126002_j20727512171029_2_alg».proof.Proof.Gen.Kernel
import proofs.«126002_j20727512171029_2_alg».proof.Proof.Gen.Kernel.Frame
import proofs.«126002_j20727512171029_2_alg».proof.Proof.Gen.KernelIdeal
import proofs.«126002_j20727512171029_2_alg».proof.Proof.Gen.KernelIdeal.Frame
import proofs.«126002_j20727512171029_2_alg».proof.Proof.Gen.ReferenceIdeal
import proofs.«126002_j20727512171029_2_alg».proof.Proof.Gen.ReferenceIdeal.Run
import proofs.«126002_j20727512171029_2_alg».proof.Proof.Gen.ReferenceIdeal.Read
import proofs.«126002_j20727512171029_2_alg».proof.Proof.Gen.Pre_finite_inputs
import proofs.«126002_j20727512171029_2_alg».proof.Proof.KernelValue
import proofs.«126002_j20727512171029_2_alg».proof.Proof.RefValue
import Idealize.ShloMosaic.Adequacy
import Idealize.ShloMosaic.Init

noncomputable section

namespace Cert.Proof

open Idealize.ShloMosaic Idealize.SL.Sem

/-- The word-level kernel runs, faults nowhere and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From memories agreeing on the arguments both programs end at the per-channel affine map of those arguments. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.reference_eq, (hagree c).1,
    (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
